-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S16x32 : Shape := ⟨2, ![16, 32]⟩
abbrev S32 : Shape := ⟨1, ![32]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S100000x16 .f32) (main_arg1 : IVec S2x3200000 32) (main_arg2 : FVec F S16x32 .f32) (main_arg3 : FVec F S32 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S100000x16 : Shape := ⟨2, ![100000, 16]⟩
abbrev S2x3200000 : Shape := ⟨2, ![2, 3200000]⟩
abbrev S16x32 : Shape := ⟨2, ![16, 32]⟩
abbrev S32 : Shape := ⟨1, ![32]⟩
abbrev S1x3200000 : Shape := ⟨2, ![1, 3200000]⟩
abbrev S3200000 : Shape := ⟨1, ![3200000]⟩
abbrev S100000x32 : Shape := ⟨2, ![100000, 32]⟩
abbrev S5000x16 : Shape := ⟨2, ![5000, 16]⟩
abbrev S5000x32 : Shape := ⟨2, ![5000, 32]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S1x32 : Shape := ⟨2, ![1, 32]⟩
abbrev S5000x1 : Shape := ⟨2, ![5000, 1]⟩

abbrev nBuf : Space → Nat
  | .hbm => 68
  | .vmem => 14
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x32, .f32⟩
  | .hbm, ⟨3, _⟩ => ⟨S32, .f32⟩
  | .hbm, ⟨4, _⟩ => ⟨S1x3200000, .i32⟩
  | .hbm, ⟨5, _⟩ => ⟨S3200000, .i32⟩
  | .hbm, ⟨6, _⟩ => ⟨S1x3200000, .i32⟩
  | .hbm, ⟨7, _⟩ => ⟨S3200000, .i32⟩
  | .hbm, ⟨8, _⟩ => ⟨S100000x32, .f32⟩
  | .hbm, ⟨9, _⟩ => ⟨S_, .f32⟩
  | .hbm, ⟨10, _⟩ => ⟨S3200000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S3200000, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x32, .f32⟩
  | .hbm, ⟨54, _⟩ => ⟨S3200000x1, .f32⟩
  | .hbm, ⟨55, _⟩ => ⟨S3200000x32, .f32⟩
  | .hbm, ⟨56, _⟩ => ⟨S3200000x32, .f32⟩
  | .hbm, ⟨57, _⟩ => ⟨S_, .f32⟩
  | .hbm, ⟨58, _⟩ => ⟨S100000x32, .f32⟩
  | .hbm, ⟨59, _⟩ => ⟨S3200000x1, .i32⟩
  | .hbm, ⟨60, _⟩ => ⟨S100000x32, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S1x32, .f32⟩
  | .hbm, ⟨67, _⟩ => ⟨S100000x32, .f32⟩
  | .local _ .vmem, ⟨0, _⟩ => ⟨S5000x16, .f32⟩
  | .local _ .vmem, ⟨1, _⟩ => ⟨S5000x16, .f32⟩
  | .local _ .vmem, ⟨2, _⟩ => ⟨S16x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S5000x32_S5000x32_0_0 : ∀ a, (![0, 0] : Fin 2 → Nat) a + S5000x32.size a ≤ S5000x32.size a
  h_S5000x32 : 0 < S5000x32.numel
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S100000_S100000x1 : S100000.ShapeCasts S100000x1
  shapeCasts_S32_S1x32 : S32.ShapeCasts S1x32
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  dot_S5000x16_S16x32_S5000x32_1_0_0_1_n_n_wf : DotDims.WF S5000x16 S16x32 S5000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)

variable [Facts₀]

def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S16x32 : Shape := ⟨2, ![16, 32]⟩
abbrev S32 : Shape := ⟨1, ![32]⟩
abbrev S1x3200000 : Shape := ⟨2, ![1, 3200000]⟩
abbrev S3200000 : Shape := ⟨1, ![3200000]⟩
abbrev S100000x32 : Shape := ⟨2, ![100000, 32]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S1x32 : Shape := ⟨2, ![1, 32]⟩

abbrev nBuf : Space → Nat
  | .hbm => 72
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x32, .f32⟩
  | .hbm, ⟨3, _⟩ => ⟨S32, .f32⟩
  | .hbm, ⟨4, _⟩ => ⟨S1x3200000, .i32⟩
  | .hbm, ⟨5, _⟩ => ⟨S3200000, .i32⟩
  | .hbm, ⟨6, _⟩ => ⟨S1x3200000, .i32⟩
  | .hbm, ⟨7, _⟩ => ⟨S3200000, .i32⟩
  | .hbm, ⟨8, _⟩ => ⟨S100000x32, .f32⟩
  | .hbm, ⟨9, _⟩ => ⟨S_, .f32⟩
  | .hbm, ⟨10, _⟩ => ⟨S3200000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S3200000, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x32, .f32⟩
  | .hbm, ⟨54, _⟩ => ⟨S3200000x1, .f32⟩
  | .hbm, ⟨55, _⟩ => ⟨S3200000x32, .f32⟩
  | .hbm, ⟨56, _⟩ => ⟨S3200000x32, .f32⟩
  | .hbm, ⟨57, _⟩ => ⟨S_, .f32⟩
  | .hbm, ⟨58, _⟩ => ⟨S100000x32, .f32⟩
  | .hbm, ⟨59, _⟩ => ⟨S3200000x1, .i32⟩
  | .hbm, ⟨60, _⟩ => ⟨S100000x32, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x32, .f32⟩
  | .hbm, ⟨67, _⟩ => ⟨S100000x32, .f32⟩
  | .hbm, ⟨68, _⟩ => ⟨S100000x32, .f32⟩
  | .hbm, ⟨69, _⟩ => ⟨S1x32, .f32⟩
  | .hbm, ⟨70, _⟩ => ⟨S100000x32, .f32⟩
  | .hbm, ⟨71, _⟩ => ⟨S100000x32, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x16_S16x32_S100000x32_1_0_0_1_n_n_wf : DotDims.WF S100000x16 S16x32 S100000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1

variable [Facts₀]

def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.KRun.lean ====
/-
  The two-launch program's run with its result named.

  The program is four stretches of host operations around two kernel launches.  Its run is the chain of those six
  segments from the launch memory: after each stretch every buffer holds the stretch's fold over what it held before,
  after each launch the launch's arrays hold what the pipeline's write-backs leave and every other buffer what it held.
  Every weakly fair execution terminates without a fault in a state whose buffers are the last boundary's contents;
  read at the result buffer this names the result — the second launch's output array after all of its write-backs —,
  and read at the four argument buffers it says they end as launched.
-/
import proofs.«113676_j52424370815010_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the six segments: the result buffer ends at the last boundary's contents there, the arguments as launched. -/
theorem run_named : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

/-- The last boundary's contents at the result buffer are the second launch's output array after its write-backs. -/
theorem result_arr (c : Dev nD) :
    W6 m ρ c (Proc.devRef .tc main_v48) = (dat1 (V5 m ρ) c).arrAt 4 cfg1.N := W6_arr m ρ c 4

end Cert.KernelIdeal.Named

end
-- ==== Proof.Spec.lean ====
/-
  The graph-convolution layer as one function of its four arguments.

  With `e` the 2 x E array of edges (row 0 the sources, row 1 the destinations), N = 100000 nodes, 16 input and 32
  output channels, the layer computes, over the extended reals,

    deg  i      = (the number of edges whose destination is i) + 2
    dinv i      = 1 / sqrt (deg i)   where deg i > 0, else 0
    norm k      = dinv (source k) * dinv (destination k)
    agg  y      = the sum, over the edges k whose destination is i, of  y (source k, j) * norm k      at (i, j)
    selfNorm i  = 2 * dinv i * dinv i
    xw (i, j)   = the sum over the 16 input channels k of  x (i, k) * w (k, j)
    out (i, j)  = agg xw (i, j) + selfNorm i * xw (i, j) + b j.

  The degree normalisation, the gathers along the edges and the scatter-additions into the destinations are the same
  host operations in both programs; they are named here once, as functions of the edge array (and, for `agg`, of the
  transformed features), and never opened: the two programs agree as soon as they feed these functions the same
  arrays.  Negative edge indices are wrapped once by N before a gather, as the host does.
-/
import proofs.«113676_j52424370815010_1_alg».proof.ReferenceIdeal
import proofs.«113676_j52424370815010_1_alg».proof.Proof.Gen.ReferenceIdeal
import Idealize.ShloMosaic.PureOps.Ideal
import Idealize.ShloMosaic.Lib.ValueIdx

noncomputable section

namespace Cert.Gcn

open Cert.ReferenceIdeal Cert.ReferenceIdeal.Facts₀ Cert.ReferenceIdeal.Facts Idealize.ShloMosaic Idealize.ShloMosaic.ValueIdx

/-- The edge array: two rows of E node indices. -/
abbrev Edges := (⟨S2x3200000, .i32⟩ : BufTy).Contents (Elt Ideal)
/-- One node index per edge. -/
abbrev EdgeIdx := (⟨S3200000, .i32⟩ : BufTy).Contents (Elt Ideal)

/-- The edges' sources: row 0 of the edge array. -/
def src (e : Edges) : EdgeIdx :=
  shapeCast S3200000 (extractStridedSlice S1x3200000 ![0, 0] e slices_S2x3200000_S1x3200000_0_0) shapeCasts_S1x3200000_S3200000

/-- The edges' destinations: row 1 of the edge array. -/
def dst (e : Edges) : EdgeIdx :=
  shapeCast S3200000 (extractStridedSlice S1x3200000 ![1, 0] e slices_S2x3200000_S1x3200000_1_0) shapeCasts_S1x3200000_S3200000

/-- A negative node index counted from the end: `v + N` where `v < 0`, else `v`. -/
def wrap (v : EdgeIdx) : EdgeIdx :=
  select (cmpi .slt v (broadcastInDim S3200000 ![] bcast_S_S3200000 (constantI S_ 32 0#32)))
    (addi v (broadcastInDim S3200000 ![] bcast_S_S3200000 (constantI S_ 32 100000#32))) v

/-- The node indices as a one-column matrix, the form a gather or a scatter takes them in. -/
def col (v : EdgeIdx) : (⟨S3200000x1, .i32⟩ : BufTy).Contents (Elt Ideal) :=
  broadcastInDim S3200000x1 ![0] bcast_S3200000_S3200000x1_0 v

/-- The degrees with the self-loop's weight: one added per edge into its destination, plus 2. -/
def deg (e : Edges) : FVec Ideal S100000 .f32 :=
  addf (Host.scatterAdd scatter_S100000_S3200000x1_S3200000_n_0_0_1
      (broadcastInDim S100000 ![] bcast_S_S100000 (constant S_ .f32 0x00000000#32))
      (col (dst e))
      (broadcastInDim S3200000 ![] bcast_S_S3200000 (constant S_ .f32 0x3F800000#32)))
    (broadcastInDim S100000 ![] bcast_S_S100000 (constant S_ .f32 0x40000000#32))

/-- The inverse square roots of the degrees, 0 where the degree is not positive. -/
def dinv (e : Edges) : FVec Ideal S100000 .f32 :=
  select (cmpf .ogt (deg e) (broadcastInDim S100000 ![] bcast_S_S100000 (constant S_ .f32 0x00000000#32)))
    (Host.rsqrt (deg e))
    (broadcastInDim S100000 ![] bcast_S_S100000 (id (constant S_ .f32 0x00000000#32)))

/-- Each edge's weight: the product of its two endpoints' inverse square-root degrees. -/
def norm (e : Edges) : FVec Ideal S3200000 .f32 :=
  mulf (Host.gather gather_S100000_S3200000x1_S3200000_n_0_n_n_0_1_1 (dinv e) (col (wrap (src e))))
    (Host.gather gather_S100000_S3200000x1_S3200000_n_0_n_n_0_1_1 (dinv e) (col (wrap (dst e))))

/-- The neighbourhood sums: each edge adds its source's row of `y`, scaled by the edge's weight, into its destination's row. -/
def agg (y : FVec Ideal S100000x32 .f32) (e : Edges) : FVec Ideal S100000x32 .f32 :=
  Host.scatterAdd scatter_S100000x32_S3200000x1_S3200000x32_1_0_0_1
    (broadcastInDim S100000x32 ![] bcast_S_S100000x32 (constant S_ .f32 0x00000000#32))
    (col (dst e))
    (mulf (Host.gather gather_S100000x32_S3200000x1_S3200000x32_1_0_n_n_0_1_132 y (col (wrap (src e))))
      (broadcastInDim S3200000x32 ![0, 1] bcast_S3200000x1_S3200000x32_0_1
        (broadcastInDim S3200000x1 ![0] bcast_S3200000_S3200000x1_0 (norm e))))

/-- The self-loop's weight at each node: `2 * dinv i * dinv i`. -/
def selfNorm (e : Edges) : FVec Ideal S100000 .f32 :=
  mulf (mulf (broadcastInDim S100000 ![] bcast_S_S100000 (constant S_ .f32 0x40000000#32)) (dinv e)) (dinv e)

/-- The transformed features at row `p`, channel `q`: the sum over the input channels. -/
def xwAt (x : FVec Ideal S100000x16 .f32) (w : FVec Ideal S16x32 .f32) (p : Fin 100000) (q : Fin 32) : EReal :=
  ∑ k : Fin 16, x (ix2 p k) * w (ix2 k q)

/-- The transformed features `x · w` as an array. -/
def xw (x : FVec Ideal S100000x16 .f32) (w : FVec Ideal S16x32 .f32) : FVec Ideal S100000x32 .f32 :=
  fun i => xwAt x w (i 0) (i 1)

theorem xw_ix2 (x : FVec Ideal S100000x16 .f32) (w : FVec Ideal S16x32 .f32) (p : Fin 100000) (q : Fin 32) :
    xw x w (ix2 p q) = xwAt x w p q := rfl

/-- The layer's output at row `p`, channel `q`. -/
def outAt (x : FVec Ideal S100000x16 .f32) (e : Edges) (w : FVec Ideal S16x32 .f32) (b : FVec Ideal S32 .f32)
    (p : Fin 100000) (q : Fin 32) : EReal :=
  agg (xw x w) e (ix2 p q) + selfNorm e (ix1 p) * xwAt x w p q + b (ix1 q)

/-- The layer's output as an array. -/
def out (x : FVec Ideal S100000x16 .f32) (e : Edges) (w : FVec Ideal S16x32 .f32) (b : FVec Ideal S32 .f32) :
    FVec Ideal S100000x32 .f32 :=
  fun i => outAt x e w b (i 0) (i 1)

theorem out_ix2 (x : FVec Ideal S100000x16 .f32) (e : Edges) (w : FVec Ideal S16x32 .f32) (b : FVec Ideal S32 .f32)
    (p : Fin 100000) (q : Fin 32) : out x e w b (ix2 p q) = outAt x e w b p q := rfl

end Cert.Gcn

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.Transform.lean ====
/-
  The first launch: the transformed features.

  The launch walks the 100000 rows of `x` in 20 blocks of 5000 rows.  At block `t` the body multiplies rows
  5000 t … 5000 t + 4999 of `x` (all 16 columns) by the whole 16 x 32 matrix `w` into a zero accumulator and writes the
  5000 x 32 product back as rows 5000 t … 5000 t + 4999 of the output.  Rounding the operands to the short float format
  on the way in changes nothing over the extended reals, so entry (p, q) of the block is the sum over the 16 input
  channels k of x (5000 t + p, k) * w (k, q): the block is a block of the one array `x · w`.  The 20 blocks tile the
  output, so after the launch the output array is `x · w`.
-/
import proofs.«113676_j52424370815010_1_alg».proof.Proof.Gen.KernelIdeal.Frame
import proofs.«113676_j52424370815010_1_alg».proof.Proof.Spec
import proofs.«113676_j52424370815010_1_alg».proof.Proof.LibDense
import Idealize.ShloMosaic.Lib.Pipeline.Value
import Idealize.ShloMosaic.Lib.ValueIdx

set_option maxRecDepth 16384

noncomputable section

namespace Cert.KernelIdeal.Transform

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The body's product at (p, q): the sum over the 16 input channels. -/
theorem product_apply (x0 : Vec Ideal S5000x16 .f32) (x1 : Vec Ideal S16x32 .f32) (p : Fin 5000) (q : Fin 32) :
    k0_pay1 x0 x1 (ix2 p q) = ∑ k : Fin 16, x0 (ix2 p k) * x1 (ix2 k q) := by
  unfold k0_pay1
  exact matmul_zero_plain_apply dot_S5000x16_S16x32_S5000x32_1_0_0_1_n_n none rfl rfl
    (fun _ _ => rfl) (fun _ _ => rfl) (fun _ _ => rfl) (fun _ _ => rfl) _ _ p q

/-- Where the three windows' blocks sit at grid point `t`: block row `t` of `x` and of the output, the whole of `w`. -/
theorem block_positions : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) ≤ 19 ∧ win0_2.index t (1 : Fin 2) = 0 :=
  (by decide +kernel : ∀ t : Fin grid0.N, _)

/-- Every block row of the output is some grid point's. -/
theorem block_onto : ∀ q0 : Fin 20, ∃ t : Fin cfg0.N, win0_2.index t = ![q0.val, 0] :=
  (by decide +kernel : ∀ q0 : Fin 20, ∃ t : Fin grid0.N, win0_2.index t = ![q0.val, 0])

/-- What grid point `t` writes back is block `t` of `x · w`. -/
theorem flushed_eq (c : Dev nD) (t : Fin cfg0.N) :
    (dat0 V c).flushed 2 t = ((cfg0.win 2).blk t).view.read (Elt Ideal) (Cert.Gcn.xw (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x16) zero_offsets, View.ld_unit_zero (S := S16x32) zero_offsets]
  obtain ⟨e0, e1, e2, e3, e4, e5⟩ := block_positions t
  funext j
  obtain ⟨p, q, rfl⟩ : ∃ (p : Fin 5000) (q : Fin 32), j = ix2 p q := ⟨j 0, j 1, eq_ix2 j⟩
  have hp : p.val < 5000 := p.isLt
  show k0_pay1 (iblk0 V c 0 t) (iblk0 V c 1 t) (ix2 p q)
    = Cert.Gcn.xw (V c main_arg0) (V c main_arg2) (((cfg0.win 2).blk t).view.emb (ix2 p q))
  refine (product_apply (iblk0 V c 0 t) (iblk0 V c 1 t) p q).trans ?_
  have hrow : ((cfg0.win 2).blk t).view.emb (ix2 p q)
      = ix2 (⟨win0_2.index t (0 : Fin 2) * 5000 + p.val, by omega⟩ : Fin 100000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 32 + 1 * q.val = q.val; omega
  rw [hrow, Cert.Gcn.xw_ix2]
  unfold Cert.Gcn.xwAt
  refine Finset.sum_congr rfl fun k _ => ?_
  have h0 : iblk0 V c 0 t (ix2 p k)
      = V c main_arg0 (ix2 (⟨win0_2.index t (0 : Fin 2) * 5000 + p.val, by omega⟩ : Fin 100000) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 16 + 1 * k.val = k.val; omega
  have h1 : iblk0 V c 1 t (ix2 k q) = V c main_arg2 (ix2 k q) := by
    show V c main_arg2 (((cfg0.win 1).blk t).view.emb (ix2 k q)) = _
    refine congrArg (V c main_arg2) ?_
    funext a; apply Fin.ext
    match a with
    | ⟨0, _⟩ => show win0_1.index t (0 : Fin 2) * 16 + 1 * k.val = k.val; omega
    | ⟨1, _⟩ => show win0_1.index t (1 : Fin 2) * 32 + 1 * q.val = q.val; omega
  rw [h0, h1]

/-- An index of the output lies in grid point `t`'s block iff each coordinate lies in the block's range on its axis. -/
theorem mem_block (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v4).slice (win0_2.rect t)).set ↔ _
  rw [View.set_slice_whole, Rect.mem_set_unit]
  exact Iff.rfl

/-- The 20 blocks cover the output: row `r` lies in block `r / 5000`. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 32 ≤ (i 1).val ∧ (i 1).val < win0_2.index t (1 : Fin 2) * 32 + 32
    omega

/-- After the launch the output array is `x · w` of the two arrays the launch found. -/
theorem final (c : Dev nD) :
    (dat0 V c).arrAt 2 cfg0.N = Cert.Gcn.xw (V c main_arg0) (V c main_arg2) :=
  (dat0 V c).arrAt_eq_of_cover 2 _ (fun t _ => flushed_eq V c t) covered

end Cert.KernelIdeal.Transform

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Combine.lean ====
/-
  The second launch: neighbourhood sums, self-loops and bias put together.

  The launch walks the 100000 rows in 20 blocks of 5000 rows.  At block `t` the body reads rows 5000 t … 5000 t + 4999 of
  the neighbourhood sums `a` and of the transformed features `y` (32 columns each), the same rows of the one-column matrix
  `s` of self-loop weights, and the whole one-row matrix `r` of biases, and writes back, at (p, q),

      a (p, q) + s (p, 0) * y (p, q) + r (0, q)

  (the column repeated along the 32 channels, the row down the 5000 rows) as the same rows of the output: the block is a
  block of the one array `combine a y s r`.  The 20 blocks tile the output, so after the launch the output array is
  `combine` of the four arrays the launch found.
-/
import proofs.«113676_j52424370815010_1_alg».proof.Proof.Gen.KernelIdeal.Frame
import proofs.«113676_j52424370815010_1_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.Combine

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Sums plus weighted features plus bias, entry by entry: `a (p, q) + s (p, 0) * y (p, q) + r (0, q)`. -/
def combine (a y : FVec Ideal S100000x32 .f32) (s : FVec Ideal S100000x1 .f32) (r : FVec Ideal S1x32 .f32) :
    FVec Ideal S100000x32 .f32 :=
  fun i => a i + s (ix2 (i 0) (0 : Fin 1)) * y i + r (ix2 (0 : Fin 1) (i 1))

theorem combine_ix2 (a y : FVec Ideal S100000x32 .f32) (s : FVec Ideal S100000x1 .f32) (r : FVec Ideal S1x32 .f32)
    (p : Fin 100000) (q : Fin 32) :
    combine a y s r (ix2 p q) = a (ix2 p q) + s (ix2 p (0 : Fin 1)) * y (ix2 p q) + r (ix2 (0 : Fin 1) q) := rfl

variable (V : (c : Dev nD) → (b : Ref sig .tc) → Buf (Elt Ideal) ((c : Thread nD τ).loc b))

theorem zero_offsets : (![0, 0] : Fin 2 → Nat) = fun _ => 0 := funext fun a => by fin_cases a <;> rfl

/-- The body's value at (p, q) of the four blocks it reads. -/
theorem body_apply (v0 : Vec Ideal S5000x32 .f32) (v2 : Vec Ideal S5000x1 .f32) (v4 : Vec Ideal S5000x32 .f32)
    (v9 : Vec Ideal S1x32 .f32) (p : Fin 5000) (q : Fin 32) :
    k1_pay1 v0 v2 v4 v9 (ix2 p q)
      = v0 (ix2 p q) + v2 (ix2 p (0 : Fin 1)) * v4 (ix2 p q) + v9 (ix2 (0 : Fin 1) q) := by
  unfold k1_pay1
  simp only [addf_apply, mulf_apply, shapeCast_self]
  rw [broadcastTo_a1_ab_apply, broadcastTo_1b_ab_apply]

/-- Where the five windows' blocks sit at grid point `t`: block row `t` of the three row-blocked inputs and of the output,
    the whole bias row. -/
theorem block_positions : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (0 : Fin 2) ≤ 19 ∧ win1_4.index t (1 : Fin 2) = 0 :=
  (by decide +kernel : ∀ t : Fin grid1.N, _)

/-- Every block row of the output is some grid point's. -/
theorem block_onto : ∀ q0 : Fin 20, ∃ t : Fin cfg1.N, win1_4.index t = ![q0.val, 0] :=
  (by decide +kernel : ∀ q0 : Fin 20, ∃ t : Fin grid1.N, win1_4.index t = ![q0.val, 0])

/-- What grid point `t` writes back is block `t` of `combine` of the four arrays the launch found. -/
theorem flushed_eq (c : Dev nD) (t : Fin cfg1.N) :
    (dat1 V c).flushed 4 t = ((cfg1.win 4).blk t).view.read (Elt Ideal)
      (combine (V c main_v42) (V c main_v4) (V c main_v46) (V c main_v47)) := by
  show (cfg1.win 4).cut (grid1.coords t) ((dat1 V c).after 4 t) = _
  rw [after1_4]
  unfold out1_4
  rw [View.canon_unit_zero zero_offsets]
  simp only [View.ld_unit_zero (S := S5000x32) zero_offsets, View.ld_unit_zero (S := S5000x1) zero_offsets,
    View.ld_unit_zero (S := S1x32) zero_offsets]
  obtain ⟨e0, e1, e2, e3, e4, e5, e6, e7, e8, e9⟩ := block_positions t
  funext j
  obtain ⟨p, q, rfl⟩ : ∃ (p : Fin 5000) (q : Fin 32), j = ix2 p q := ⟨j 0, j 1, eq_ix2 j⟩
  have hp : p.val < 5000 := p.isLt
  show k1_pay1 (iblk1 V c 0 t) (iblk1 V c 2 t) (iblk1 V c 1 t) (iblk1 V c 3 t) (ix2 p q)
    = combine (V c main_v42) (V c main_v4) (V c main_v46) (V c main_v47) (((cfg1.win 4).blk t).view.emb (ix2 p q))
  refine (body_apply (iblk1 V c 0 t) (iblk1 V c 2 t) (iblk1 V c 1 t) (iblk1 V c 3 t) p q).trans ?_
  have hrow : ((cfg1.win 4).blk t).view.emb (ix2 p q)
      = ix2 (⟨win1_4.index t (0 : Fin 2) * 5000 + p.val, by omega⟩ : Fin 100000) q := by
    funext a; apply Fin.ext
    match a with
    | ⟨0, _⟩ => show win1_4.index t (0 : Fin 2) * 5000 + 1 * p.val = win1_4.index t (0 : Fin 2) * 5000 + p.val; omega
    | ⟨1, _⟩ => show win1_4.index t (1 : Fin 2) * 32 + 1 * q.val = q.val; omega
  rw [hrow, combine_ix2]
  have h0 : iblk1 V c 0 t (ix2 p q)
      = V c main_v42 (ix2 (⟨win1_4.index t (0 : Fin 2) * 5000 + p.val, by omega⟩ : Fin 100000) q) := by
    show V c main_v42 (((cfg1.win 0).blk t).view.emb (ix2 p q)) = _
    refine congrArg (V c main_v42) ?_
    funext a; apply Fin.ext
    match a with
    | ⟨0, _⟩ => show win1_0.index t (0 : Fin 2) * 5000 + 1 * p.val = win1_4.index t (0 : Fin 2) * 5000 + p.val; omega
    | ⟨1, _⟩ => show win1_0.index t (1 : Fin 2) * 32 + 1 * q.val = q.val; omega
  have h1 : iblk1 V c 1 t (ix2 p q)
      = V c main_v4 (ix2 (⟨win1_4.index t (0 : Fin 2) * 5000 + p.val, by omega⟩ : Fin 100000) q) := by
    show V c main_v4 (((cfg1.win 1).blk t).view.emb (ix2 p q)) = _
    refine congrArg (V c main_v4) ?_
    funext a; apply Fin.ext
    match a with
    | ⟨0, _⟩ => show win1_1.index t (0 : Fin 2) * 5000 + 1 * p.val = win1_4.index t (0 : Fin 2) * 5000 + p.val; omega
    | ⟨1, _⟩ => show win1_1.index t (1 : Fin 2) * 32 + 1 * q.val = q.val; omega
  have h2 : iblk1 V c 2 t (ix2 p (0 : Fin 1))
      = V c main_v46 (ix2 (⟨win1_4.index t (0 : Fin 2) * 5000 + p.val, by omega⟩ : Fin 100000) (0 : Fin 1)) := by
    show V c main_v46 (((cfg1.win 2).blk t).view.emb (ix2 p (0 : Fin 1))) = _
    refine congrArg (V c main_v46) ?_
    funext a; apply Fin.ext
    match a with
    | ⟨0, _⟩ => show win1_2.index t (0 : Fin 2) * 5000 + 1 * p.val = win1_4.index t (0 : Fin 2) * 5000 + p.val; omega
    | ⟨1, _⟩ => show win1_2.index t (1 : Fin 2) * 1 + 1 * 0 = 0; omega
  have h3 : iblk1 V c 3 t (ix2 (0 : Fin 1) q) = V c main_v47 (ix2 (0 : Fin 1) q) := by
    show V c main_v47 (((cfg1.win 3).blk t).view.emb (ix2 (0 : Fin 1) q)) = _
    refine congrArg (V c main_v47) ?_
    funext a; apply Fin.ext
    match a with
    | ⟨0, _⟩ => show win1_3.index t (0 : Fin 2) * 1 + 1 * 0 = 0; omega
    | ⟨1, _⟩ => show win1_3.index t (1 : Fin 2) * 32 + 1 * q.val = q.val; omega
  rw [h0, h1, h2, h3]

/-- An index of the output lies in grid point `t`'s block iff each coordinate lies in the block's range on its axis. -/
theorem mem_block (t : Fin cfg1.N) (i : S100000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v48).slice (win1_4.rect t)).set ↔ _
  rw [View.set_slice_whole, Rect.mem_set_unit]
  exact Iff.rfl

/-- The 20 blocks cover the output: row `r` lies in block `r / 5000`. -/
theorem covered (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ := block_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 32 ≤ (i 1).val ∧ (i 1).val < win1_4.index t (1 : Fin 2) * 32 + 32
    omega

/-- After the launch the output array is `combine` of the four arrays the launch found. -/
theorem final (c : Dev nD) :
    (dat1 V c).arrAt 4 cfg1.N = combine (V c main_v42) (V c main_v4) (V c main_v46) (V c main_v47) :=
  (dat1 V c).arrAt_eq_of_cover 4 _ (fun t _ => flushed_eq V c t) covered

end Cert.KernelIdeal.Combine

end
-- ==== Proof.HostSide.lean ====
/-
  What the two launches find, read through the host operations around them.

  Before the first launch the host only splits the edge array into its two rows, so the launch finds `x` and `w` as
  launched.  Between the launches the host computes, from the first launch's output `y` and the two rows of edges: the
  degrees, their inverse square roots (the selection written as a called function, whose operations take and give
  their values through typed references — the identity on contents), each edge's weight, the neighbourhood sums of
  `y`, the self-loop weights as a one-column matrix, and the bias as a one-row matrix.  None of these operations
  writes `y`.  So the second launch finds, in its four input arrays: `agg y e`; `y` itself; `selfNorm e` reshaped
  to a column; `b` reshaped to a row — with `agg` and `selfNorm` the shared host chain, never opened here.
-/
import proofs.«113676_j52424370815010_1_alg».proof.Proof.Gen.KernelIdeal.Frame
import proofs.«113676_j52424370815010_1_alg».proof.Proof.Spec
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first launch finds `x` as launched. -/
theorem x_eq (c : Dev nD) : V1 m ρ c main_arg0 = m ((c : Thread nD τ).loc main_arg0) := by
  show StableHlo.after hostOps0 (W0 m ρ c) (Proc.devRef .tc main_arg0) = _
  after_results_simp <;> rfl

/-- The first launch finds `w` as launched. -/
theorem w_eq (c : Dev nD) : V1 m ρ c main_arg2 = m ((c : Thread nD τ).loc main_arg2) := by
  show StableHlo.after hostOps0 (W0 m ρ c) (Proc.devRef .tc main_arg2) = _
  after_results_simp <;> rfl

/-- After the first launch the sources' buffer holds row 0 of the edge array. -/
theorem src_eq (c : Dev nD) :
    W2 m ρ c (Proc.devRef .tc main_v1) = Cert.Gcn.src (m ((c : Thread nD τ).loc main_arg1)) := by
  rw [W2_of_ne m ρ c main_v1 (by decide)]
  show StableHlo.after hostOps0 (W0 m ρ c) (Proc.devRef .tc main_v1) = _
  after_results
  rfl

/-- After the first launch the destinations' buffer holds row 1 of the edge array. -/
theorem dst_eq (c : Dev nD) :
    W2 m ρ c (Proc.devRef .tc main_v3) = Cert.Gcn.dst (m ((c : Thread nD τ).loc main_arg1)) := by
  rw [W2_of_ne m ρ c main_v3 (by decide)]
  show StableHlo.after hostOps0 (W0 m ρ c) (Proc.devRef .tc main_v3) = _
  after_results
  rfl

/-- After the first launch the bias is as launched. -/
theorem b_eq (c : Dev nD) :
    W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results_simp <;> rfl

/-! ## After the degree normalisation (the first stretch between the launches and the called selection) -/

/-! The called selection takes and gives its values through typed references; a value passes through each of them
    unchanged (the reference's type is the value's type). -/

theorem pass_v12 (h1 h2 h3) (v : (⟨S100000, .i1⟩ : BufTy).Contents (Elt Ideal)) :
    (TRef.of (sig := sig) (T := ⟨S100000, .i1⟩) main_v12 h1 h2 h3).ofBuf v = v := rfl
theorem pass_v13 (h1 h2 h3) (v : (⟨S100000, .f32⟩ : BufTy).Contents (Elt Ideal)) :
    (TRef.of (sig := sig) (T := ⟨S100000, .f32⟩) main_v13 h1 h2 h3).ofBuf v = v := rfl
theorem pass_cst (h1 h2 h3) (v : (⟨S_, .f32⟩ : BufTy).Contents (Elt Ideal)) :
    (TRef.of (sig := sig) (T := ⟨S_, .f32⟩) main_cst_3 h1 h2 h3).ofBuf v = v := rfl
theorem pass_scalar (h1 h2 h3) (v : (⟨S_, .f32⟩ : BufTy).Contents (Elt Ideal)) :
    (TRef.of (sig := sig) (T := ⟨S_, .f32⟩) main_call0_v0 h1 h2 h3).ofBuf
      ((TRef.of (sig := sig) (T := ⟨S_, .f32⟩) main_call0_v0 h1 h2 h3).toBuf v) = v := rfl
theorem pass_spread (h1 h2 h3) (v : (⟨S100000, .f32⟩ : BufTy).Contents (Elt Ideal)) :
    (TRef.of (sig := sig) (T := ⟨S100000, .f32⟩) main_call0_v1 h1 h2 h3).ofBuf
      ((TRef.of (sig := sig) (T := ⟨S100000, .f32⟩) main_call0_v1 h1 h2 h3).toBuf v) = v := rfl
theorem pass_v14 (h1 h2 h3) (v : (⟨S100000, .f32⟩ : BufTy).Contents (Elt Ideal)) :
    (TRef.of (sig := sig) (T := ⟨S100000, .f32⟩) main_v14 h1 h2 h3).toBuf v = v := rfl

/-- The inverse square-root degrees, as the host leaves them before the edge stage. -/
theorem dinv_eq (c : Dev nD) :
    W4 m ρ c (Proc.devRef .tc main_v14) = Cert.Gcn.dinv (m ((c : Thread nD τ).loc main_arg1)) := by
  show StableHlo.after hostOps1_1 (StableHlo.after hostOps1 (W2 m ρ c)) (Proc.devRef .tc main_v14) = _
  after_results_simp
  rw [dst_eq]
  generalize m ((c : Thread nD τ).loc main_arg1) = e
  rw [pass_v14, pass_v12, pass_v13, pass_spread, pass_scalar, pass_cst]
  rfl

/-- The degree normalisation leaves the sources, -/
theorem mid_src (c : Dev nD) :
    W4 m ρ c (Proc.devRef .tc main_v1) = Cert.Gcn.src (m ((c : Thread nD τ).loc main_arg1)) := by
  show StableHlo.after hostOps1_1 (StableHlo.after hostOps1 (W2 m ρ c)) (Proc.devRef .tc main_v1) = _
  after_results_simp
  exact src_eq m ρ c

/-- the destinations, -/
theorem mid_dst (c : Dev nD) :
    W4 m ρ c (Proc.devRef .tc main_v3) = Cert.Gcn.dst (m ((c : Thread nD τ).loc main_arg1)) := by
  show StableHlo.after hostOps1_1 (StableHlo.after hostOps1 (W2 m ρ c)) (Proc.devRef .tc main_v3) = _
  after_results_simp
  exact dst_eq m ρ c

/-- the first launch's output -/
theorem mid_features (c : Dev nD) :
    W4 m ρ c (Proc.devRef .tc main_v4) = W2 m ρ c (Proc.devRef .tc main_v4) := by
  show StableHlo.after hostOps1_1 (StableHlo.after hostOps1 (W2 m ρ c)) (Proc.devRef .tc main_v4) = _
  after_results_simp <;> rfl

/-- and the bias as they were. -/
theorem mid_b (c : Dev nD) :
    W4 m ρ c (Proc.devRef .tc main_arg3) = m ((c : Thread nD τ).loc main_arg3) := by
  show StableHlo.after hostOps1_1 (StableHlo.after hostOps1 (W2 m ρ c)) (Proc.devRef .tc main_arg3) = _
  after_results_simp
  exact b_eq m ρ c

/-! ## After the edge stage (the last stretch before the second launch) -/

/-- The second launch finds the first launch's output untouched by the host operations between them. -/
theorem features_eq (c : Dev nD) : V5 m ρ c main_v4 = W2 m ρ c (Proc.devRef .tc main_v4) := by
  have h4 := mid_features m ρ c
  show StableHlo.after hostOps1_2 (W4 m ρ c) (Proc.devRef .tc main_v4) = _
  generalize W4 m ρ c = Wm at h4 ⊢
  after_results_simp
  exact h4

set_option maxHeartbeats 4000000 in
/-- The second launch finds the neighbourhood sums of the first launch's output. -/
theorem agg_eq (c : Dev nD) :
    V5 m ρ c main_v42
      = Cert.Gcn.agg (W2 m ρ c (Proc.devRef .tc main_v4)) (m ((c : Thread nD τ).loc main_arg1)) := by
  have h14 := dinv_eq m ρ c
  have h1 := mid_src m ρ c
  have h3 := mid_dst m ρ c
  have h4 := mid_features m ρ c
  show StableHlo.after hostOps1_2 (W4 m ρ c) (Proc.devRef .tc main_v42) = _
  generalize W4 m ρ c = Wm at h14 h1 h3 h4 ⊢
  after_results_simp
  rw [h14, h1, h3, h4]
  generalize W2 m ρ c (Proc.devRef .tc main_v4) = y
  generalize m ((c : Thread nD τ).loc main_arg1) = e
  rfl

set_option maxHeartbeats 4000000 in
/-- The second launch finds the self-loop weights reshaped to a one-column matrix. -/
theorem selfNorm_eq (c : Dev nD) :
    V5 m ρ c main_v46
      = shapeCast S100000x1 (Cert.Gcn.selfNorm (m ((c : Thread nD τ).loc main_arg1))) shapeCasts_S100000_S100000x1 := by
  have h14 := dinv_eq m ρ c
  show StableHlo.after hostOps1_2 (W4 m ρ c) (Proc.devRef .tc main_v46) = _
  generalize W4 m ρ c = Wm at h14 ⊢
  after_results_simp
  rw [h14]
  generalize m ((c : Thread nD τ).loc main_arg1) = e
  rfl

/-- The second launch finds the bias reshaped to a one-row matrix. -/
theorem bias_eq (c : Dev nD) :
    V5 m ρ c main_v47 = shapeCast S1x32 (m ((c : Thread nD τ).loc main_arg3)) shapeCasts_S32_S1x32 := by
  have hb := mid_b m ρ c
  show StableHlo.after hostOps1_2 (W4 m ρ c) (Proc.devRef .tc main_v47) = _
  generalize W4 m ρ c = Wm at hb ⊢
  after_results_simp
  rw [hb]
  rfl

end Cert.KernelIdeal.HostSide

end
-- ==== Proof.Layer.lean ====
/-
  The kernel program computes the layer.

  The result buffer ends at the second launch's output array, which is `combine` of the four arrays that launch found:
  the neighbourhood sums of the first launch's output, that output itself, the self-loop weights as a column, the bias
  as a row.  The first launch's output is `xw x w` of the arguments as launched.  At (p, q) the column reads the
  self-loop weight of node p and the row reads the bias of channel q, so the result at (p, q) is

      agg (xw x w) e (p, q) + selfNorm e p * xw x w (p, q) + b q,

  the layer's output.
-/
import proofs.«113676_j52424370815010_1_alg».proof.Proof.KRun
import proofs.«113676_j52424370815010_1_alg».proof.Proof.Transform
import proofs.«113676_j52424370815010_1_alg».proof.Proof.Combine
import proofs.«113676_j52424370815010_1_alg».proof.Proof.HostSide
import proofs.«113676_j52424370815010_1_alg».proof.Proof.Spec
import proofs.«113676_j52424370815010_1_alg».proof.Proof.LibKeepdims
import Idealize.ShloMosaic.Lib.ValueLayout

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first launch's output array is `x · w` of the arguments as launched. -/
theorem features (c : Dev nD) :
    W2 m ρ c (Proc.devRef .tc main_v4)
      = Cert.Gcn.xw (m ((c : Thread nD τ).loc main_arg0)) (m ((c : Thread nD τ).loc main_arg2)) :=
  (W2_arr m ρ c 2).trans ((Transform.final (V1 m ρ) c).trans (by rw [HostSide.x_eq, HostSide.w_eq]))

/-- The result buffer ends at the layer's output of the four arguments as launched. -/
theorem result_eq (c : Dev nD) :
    W6 m ρ c (Proc.devRef .tc main_v48)
      = Cert.Gcn.out (m ((c : Thread nD τ).loc main_arg0)) (m ((c : Thread nD τ).loc main_arg1))
          (m ((c : Thread nD τ).loc main_arg2)) (m ((c : Thread nD τ).loc main_arg3)) := by
  rw [Named.result_arr, Combine.final (V5 m ρ) c, HostSide.agg_eq, HostSide.features_eq, HostSide.selfNorm_eq,
    HostSide.bias_eq, features]
  generalize m ((c : Thread nD τ).loc main_arg0) = x
  generalize m ((c : Thread nD τ).loc main_arg1) = e
  generalize m ((c : Thread nD τ).loc main_arg2) = w
  generalize m ((c : Thread nD τ).loc main_arg3) = b
  funext i
  obtain ⟨p, q, rfl⟩ : ∃ (p : Fin 100000) (q : Fin 32), i = ix2 p q := ⟨i 0, i 1, eq_ix2 i⟩
  rw [Combine.combine_ix2, Cert.Gcn.out_ix2]
  unfold Cert.Gcn.outAt
  rw [shapeCast_a_a1_apply, shapeCast_a_1a_apply, Cert.Gcn.xw_ix2]

end Cert.KernelIdeal.Layer

end
-- ==== Proof.LibBroadcastInDim.lean ====
/-
  `broadcast_in_dim` read at an index, for four shapes a host program takes a row statistic or a bias through
  (the library has the fifth, a scalar spread over any shape): a vector written as a column; a column repeated along every column; a vector written
  as a one-row matrix; a one-row matrix repeated down every row. In each the entry of the result at an index is the
  operand's entry at the coordinates the operand has.
-/
import Idealize.ShloMosaic.Lib.Pipeline.Value
import Idealize.ShloMosaic.Lib.ValueIdx

namespace Idealize.ShloMosaic.ValueIdx

variable {α : Type}

/-- An `[a]` vector written as the column `[a, 1]` (its axis sent to axis 0) reads, at `(p, u)`, the vector at `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ (![0] : Fin 1 → Fin 2) h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- An `[a, 1]` column repeated along the columns of `[a, b]` (axes kept in place) reads, at `(p, c)`, the column at row `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ (![0, 1] : Fin 2 → Fin 2) h x (ix2 p c) = x (ix2 p (0 : Fin 1)) :=
  broadcastInDim_apply _ h x (ix2 p c) (ix2 p (0 : Fin 1)) fun ax => by
    match ax with
    | ⟨0, _⟩ =>
      show p.val = if a = 1 then 0 else p.val
      split
      · have := p.isLt; omega
      · rfl
    | ⟨1, _⟩ => rfl

/-- A `[b]` vector written as the one-row matrix `[1, b]` (its axis sent to axis 1) reads, at `(u, c)`, the vector at `c`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ (![1] : Fin 1 → Fin 2) h x (ix2 u c) = x (ix1 c) :=
  broadcastInDim_apply _ h x (ix2 u c) (ix1 c) fun ax => by
    match ax with
    | ⟨0, _⟩ =>
      show c.val = if b = 1 then 0 else c.val
      split
      · have := c.isLt; omega
      · rfl

/-- A `[1, b]` one-row matrix repeated down the rows of `[a, b]` reads, at `(p, c)`, the row at column `c`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ (![0, 1] : Fin 2 → Fin 2) h x (ix2 p c) = x (ix2 (0 : Fin 1) c) :=
  broadcastInDim_apply _ h x (ix2 p c) (ix2 (0 : Fin 1) c) fun ax => by
    match ax with
    | ⟨0, _⟩ => rfl
    | ⟨1, _⟩ =>
      show c.val = if b = 1 then 0 else c.val
      split
      · have := c.isLt; omega
      · rfl

end Idealize.ShloMosaic.ValueIdx
-- ==== Proof.RefValue.lean ====
/-
  The reference computes the layer.

  The reference's result is, as one term of its four arguments,

      (agg (x ·ₕ w) e + spread (selfNorm e) * (x ·ₕ w)) + spread b

  where `x ·ₕ w` is the host's product, `agg` and `selfNorm` are the shared host chain, the self-loop weights are
  written as a column and repeated along the 32 channels, and the bias is written as a row and repeated down the rows.
  The host's product at (p, q) is the sum over the 16 input channels of x (p, k) * w (k, q), so it is the array `xw x w`;
  reading the two sums and the product at (p, q), and the spread column and row at the entries they repeat, gives
  agg (xw x w) e (p, q) + selfNorm e p * xw x w (p, q) + b q, the layer's output.
-/
import proofs.«113676_j52424370815010_1_alg».proof.Proof.RefRun
import proofs.«113676_j52424370815010_1_alg».proof.Proof.Spec
import proofs.«113676_j52424370815010_1_alg».proof.Proof.LibDense
import proofs.«113676_j52424370815010_1_alg».proof.Proof.LibBroadcastInDim

set_option maxRecDepth 16384

noncomputable section

namespace Cert.ReferenceIdeal.RefValue

open Cert.ReferenceIdeal Cert.ReferenceIdeal.Facts₀ Cert.ReferenceIdeal.Facts
open Idealize.ShloMosaic Idealize.ShloMosaic.TcCoe Idealize.ShloMosaic.ValueIdx Idealize.SL.Sem
open Cert.Gcn

/-- The host's product is the array of sums over the input channels. -/
theorem dot_eq (x : FVec Ideal S100000x16 .f32) (w : FVec Ideal S16x32 .f32) :
    Host.dotGeneral dot_S100000x16_S16x32_S100000x32_1_0_0_1_n_n none x w = xw x w := by
  funext i
  obtain ⟨p, q, rfl⟩ : ∃ (p : Fin 100000) (q : Fin 32), i = ix2 p q := ⟨i 0, i 1, eq_ix2 i⟩
  rw [xw_ix2]
  unfold xwAt
  exact dotGeneral_plain_apply dot_S100000x16_S16x32_S100000x32_1_0_0_1_n_n none .single rfl rfl
    (fun _ _ => rfl) (fun _ _ => rfl) (fun _ _ => rfl) (fun _ _ => rfl) x w p q

/-- The reference's result as one term of its four arguments, the shared host chain named. -/
def refTerm (x : FVec Ideal S100000x16 .f32) (e : Edges) (w : FVec Ideal S16x32 .f32) (b : FVec Ideal S32 .f32) :
    FVec Ideal S100000x32 .f32 :=
  addf (addf
      (agg (Host.dotGeneral dot_S100000x16_S16x32_S100000x32_1_0_0_1_n_n none x w) e)
      (mulf (broadcastInDim S100000x32 ![0, 1] bcast_S100000x1_S100000x32_0_1
          (broadcastInDim S100000x1 ![0] bcast_S100000_S100000x1_0 (selfNorm e)))
        (Host.dotGeneral dot_S100000x16_S16x32_S100000x32_1_0_0_1_n_n none x w)))
    (broadcastInDim S100000x32 ![0, 1] bcast_S1x32_S100000x32_0_1 (broadcastInDim S1x32 ![1] bcast_S32_S1x32_1 b))

/-- The run's result term is that term of the launch contents of the four arguments. -/
theorem result_term (m : (ℓ : Loc nD τ sig) → Buf (Elt Ideal) ℓ) (c : Dev nD) :
    Cert.ReferenceIdeal.ValueP.res_main_v52 (F := Ideal) m c
      = refTerm (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v52 refTerm Cert.Gcn.agg Cert.Gcn.selfNorm Cert.Gcn.norm Cert.Gcn.dinv
    Cert.Gcn.deg Cert.Gcn.col Cert.Gcn.wrap Cert.Gcn.src Cert.Gcn.dst
  rfl

/-- That term is the layer's output. -/
theorem refTerm_eq (x : FVec Ideal S100000x16 .f32) (e : Edges) (w : FVec Ideal S16x32 .f32) (b : FVec Ideal S32 .f32) :
    refTerm x e w b = out x e w b := by
  unfold refTerm
  rw [dot_eq]
  funext i
  obtain ⟨p, q, rfl⟩ : ∃ (p : Fin 100000) (q : Fin 32), i = ix2 p q := ⟨i 0, i 1, eq_ix2 i⟩
  rw [out_ix2]
  unfold outAt
  rw [addf_apply, addf_apply, mulf_apply, broadcastInDim_a1_ab_apply, broadcastInDim_a_a1_apply,
    broadcastInDim_1b_ab_apply, broadcastInDim_b_1b_apply, xw_ix2]

/-- The reference's result is the layer's output of its four arguments. -/
theorem result_eq (m : (ℓ : Loc nD τ sig) → Buf (Elt Ideal) ℓ) (c : Dev nD) :
    Cert.ReferenceIdeal.ValueP.res_main_v52 (F := Ideal) m c
      = out (m ((c.tc : Thread nD τ).loc main_arg0)) (m ((c.tc : Thread nD τ).loc main_arg1))
          (m ((c.tc : Thread nD τ).loc main_arg2)) (m ((c.tc : Thread nD τ).loc main_arg3)) :=
  (result_term m c).trans (refTerm_eq _ _ _ _)

end Cert.ReferenceIdeal.RefValue

end
-- ==== Proof.lean ====
/-
  The certificate of one graph-convolution layer, out = D^(-1/2) (A + 2 I) D^(-1/2) (x w) + b, computed by a program of two
  kernel launches against a plain reference, over the extended reals.

  The kernel program multiplies `x` by `w` in a first launch (20 blocks of 5000 rows; the operands rounded to the
  short float format on the way in, which changes nothing over the extended reals), computes on the host the degrees,
  their inverse square roots, each edge's weight and the neighbourhood sums of the product, and in a second launch
  adds, entry by entry, the neighbourhood sums, the self-loop weight times the product, and the bias.  The reference
  does the product, the same host chain and the final sum on the host.

  Both results are one function of the four arguments (Proof/Spec.lean, `out`):

      out (p, q) = agg (xw x w) e (p, q) + selfNorm e p * xw x w (p, q) + b q,      xw x w (p, q) = sum over k of x (p, k) * w (k, q).

  The host chain (`agg`, `selfNorm`) is shared text of the two programs and is never opened; the two sides agree
  because they feed it the same product, and they add the three terms in the same order.  No law of the extended reals
  beyond reading a product as its sum is used, so the precondition (finite inputs) is never opened.

  Proof/Transform.lean and Proof/Combine.lean read each launch's output array as one function of the arrays the launch
  found; Proof/HostSide.lean reads what each launch found through the host operations; Proof/KRun.lean is the program's
  run with its result named; Proof/Layer.lean puts the kernel side together; Proof/RefRun.lean is the reference's run
  and Proof/RefValue.lean reads its result.  The ideal pass rewrote nothing in the kernel, so `preserves` is trivial.
-/
import proofs.«113676_j52424370815010_1_alg».proof.Defs
import proofs.«113676_j52424370815010_1_alg».proof.Proof.Gen.Kernel
import proofs.«113676_j52424370815010_1_alg».proof.Proof.Gen.Kernel.Skeleton
import proofs.«113676_j52424370815010_1_alg».proof.Proof.Gen.Kernel.Launch
import proofs.«113676_j52424370815010_1_alg».proof.Proof.Gen.Kernel.Points
import proofs.«113676_j52424370815010_1_alg».proof.Proof.Gen.Kernel.Frame
import proofs.«113676_j52424370815010_1_alg».proof.Proof.Gen.KernelIdeal
import proofs.«113676_j52424370815010_1_alg».proof.Proof.Gen.KernelIdeal.Skeleton
import proofs.«113676_j52424370815010_1_alg».proof.Proof.Gen.KernelIdeal.Launch
import proofs.«113676_j52424370815010_1_alg».proof.Proof.Gen.KernelIdeal.Points
import proofs.«113676_j52424370815010_1_alg».proof.Proof.Gen.KernelIdeal.Frame
import proofs.«113676_j52424370815010_1_alg».proof.Proof.Gen.ReferenceIdeal
import proofs.«113676_j52424370815010_1_alg».proof.Proof.Gen.Pre_finite_inputs
import proofs.«113676_j52424370815010_1_alg».proof.Proof.KRun
import proofs.«113676_j52424370815010_1_alg».proof.Proof.Layer
import proofs.«113676_j52424370815010_1_alg».proof.Proof.RefRun
import proofs.«113676_j52424370815010_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs, from memories that agree on the four arguments, end with the layer's output of those arguments. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Layer.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
